-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x200 : Shape := ⟨2, ![2048, 200]⟩
abbrev S6x128 : Shape := ⟨2, ![6, 128]⟩
abbrev S100001x128 : Shape := ⟨2, ![100001, 128]⟩
abbrev S256x512 : Shape := ⟨2, ![256, 512]⟩
abbrev S512 : Shape := ⟨1, ![512]⟩
abbrev S_ : Shape := ⟨0, ![]⟩

class Facts : Prop where
  bcast_S_S6x128 : S_.BroadcastsInDim S6x128 (![] : Fin 0 → Fin S6x128.rank)
  reducesTo_S6x128_S_d0_1 : S6x128.ReducesTo [0, 1] S_
  h_S_ : 0 < S_.numel
  bcast_S_S100001x128 : S_.BroadcastsInDim S100001x128 (![] : Fin 0 → Fin S100001x128.rank)
  reducesTo_S100001x128_S_d0_1 : S100001x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : IVec S2048x200 32) (main_arg1 : IVec S2048x200 32) (main_arg2 : FVec F S6x128 .f32) (main_arg3 : FVec F S100001x128 .f32) (main_arg4 : FVec F S256x512 .f32) (main_arg5 : FVec F S512 .f32) : IVec S_ 1 :=
  let main_v0 : FVec F S6x128 .f32 := Host.absf main_arg2
  let main_cst : FVec F S_ .f32 := constant S_ .f32 0x7F800000#32
  let main_v1 : FVec F S6x128 .f32 := broadcastInDim S6x128 ![] bcast_S_S6x128 main_cst
  let main_v2 : IVec S6x128 1 := cmpf .olt main_v0 main_v1
  let main_c : IVec S_ 1 := constantI S_ 1 1#1
  let main_v3 : IVec S_ 1 := (fun x v => Host.reduce IntOp.andi x v reducesTo_S6x128_S_d0_1 h_S_) main_v2 main_c
  let main_v4 : FVec F S100001x128 .f32 := Host.absf main_arg3
  let main_cst_0 : FVec F S_ .f32 := constant S_ .f32 0x7F800000#32
  let main_v5 : FVec F S100001x128 .f32 := broadcastInDim S100001x128 ![] bcast_S_S100001x128 main_cst_0
  let main_v6 : IVec S100001x128 1 := cmpf .olt main_v4 main_v5
  let main_c_1 : IVec S_ 1 := constantI S_ 1 1#1
  let main_v7 : IVec S_ 1 := (fun x v => Host.reduce IntOp.andi x v reducesTo_S100001x128_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S2048x200 : Shape := ⟨2, ![2048, 200]⟩
abbrev S6x128 : Shape := ⟨2, ![6, 128]⟩
abbrev S100001x128 : Shape := ⟨2, ![100001, 128]⟩
abbrev S256x512 : Shape := ⟨2, ![256, 512]⟩
abbrev S512 : Shape := ⟨1, ![512]⟩
abbrev S_ : Shape := ⟨0, ![]⟩
abbrev S2048x200x1 : Shape := ⟨3, ![2048, 200, 1]⟩
abbrev S2048x200x128 : Shape := ⟨3, ![2048, 200, 128]⟩
abbrev S128x512 : Shape := ⟨2, ![128, 512]⟩
abbrev S2048x512 : Shape := ⟨2, ![2048, 512]⟩
abbrev S64x40x128 : Shape := ⟨3, ![64, 40, 128]⟩
abbrev S64x512 : Shape := ⟨2, ![64, 512]⟩
abbrev S2560x128 : Shape := ⟨2, ![2560, 128]⟩
abbrev S2560x512 : Shape := ⟨2, ![2560, 512]⟩
abbrev S1x512 : Shape := ⟨2, ![1, 512]⟩
abbrev S64x40x512 : Shape := ⟨3, ![64, 40, 512]⟩

abbrev nBuf : Space → Nat
  | .hbm => 31
  | .vmem => 10
  | .smem => 0
  | _ => 0

abbrev bufTy : (tb : Table) → Fin (tcTables nBuf tb) → BufTy
  | .hbm, ⟨0, _⟩ => ⟨S2048x200, .i32⟩
  | .hbm, ⟨1, _⟩ => ⟨S2048x200, .i32⟩
  | .hbm, ⟨2, _⟩ => ⟨S6x128, .f32⟩
  | .hbm, ⟨3, _⟩ => ⟨S100001x128, .f32⟩
  | .hbm, ⟨4, _⟩ => ⟨S256x512, .f32⟩
  | .hbm, ⟨5, _⟩ => ⟨S512, .f32⟩
  | .hbm, ⟨6, _⟩ => ⟨S_, .i32⟩
  | .hbm, ⟨7, _⟩ => ⟨S2048x200, .i32⟩
  | .hbm, ⟨8, _⟩ => ⟨S2048x200, .i1⟩
  | .hbm, ⟨9, _⟩ => ⟨S_, .i32⟩
  | .hbm, ⟨10, _⟩ => ⟨S2048x200, .i32⟩
  | .hbm, ⟨11, _⟩ => ⟨S2048x200, .i32⟩
  | .hbm, ⟨12, _⟩ => ⟨S2048x200, .i32⟩
  | .hbm, ⟨13, _⟩ => ⟨S2048x200x1, .i32⟩
  | .hbm, ⟨14, _⟩ => ⟨S2048x200x128, .f32⟩
  | .hbm, ⟨15, _⟩ => ⟨S_, .i32⟩
  | .hbm, ⟨16, _⟩ => ⟨S2048x200, .i32⟩
  | .hbm, ⟨17, _⟩ => ⟨S2048x200, .i1⟩
  | .hbm, ⟨18, _⟩ => ⟨S_, .i32⟩
  | .hbm, ⟨19, _⟩ => ⟨S2048x200, .i32⟩
  | .hbm, ⟨20, _⟩ => ⟨S2048x200, .i32⟩
  | .hbm, ⟨21, _⟩ => ⟨S2048x200, .i32⟩
  | .hbm, ⟨22, _⟩ => ⟨S2048x200x1, .i32⟩
  | .hbm, ⟨23, _⟩ => ⟨S2048x200x128, .f32⟩
  | .hbm, ⟨24, _⟩ => ⟨S128x512, .f32⟩
  | .hbm, ⟨25, _⟩ => ⟨S128x512, .f32⟩
  | .hbm, ⟨26, _⟩ => ⟨S2048x200x128, .bf16⟩
  | .hbm, ⟨27, _⟩ => ⟨S2048x200x128, .bf16⟩
  | .hbm, ⟨28, _⟩ => ⟨S128x512, .bf16⟩
  | .hbm, ⟨29, _⟩ => ⟨S128x512, .bf16⟩
  | .hbm, ⟨30, _⟩ => ⟨S2048x512, .f32⟩
  | .local _ .vmem, ⟨0, _⟩ => ⟨S64x40x128, .bf16⟩
  | .local _ .vmem, ⟨1, _⟩ => ⟨S64x40x128, .bf16⟩
  | .local _ .vmem, ⟨2, _⟩ => ⟨S64x40x128, .bf16⟩
  | .local _ .vmem, ⟨3, _⟩ => ⟨S64x40x128, .bf16⟩
  | .local _ .vmem, ⟨4, _⟩ => ⟨S128x512, .bf16⟩
  | .local _ .vmem, ⟨5, _⟩ => ⟨S128x512, .bf16⟩
  | .local _ .vmem, ⟨6, _⟩ => ⟨S512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | _, _ => ⟨S2048x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c4_i32 : BitVec 32 := 4#32
  let v29 : BitVec 1 := Scalar.cmpi .eq arg1 c4_i32
  let v30 : BitVec 32 := Scalar.extui v29
  let c0_i32_18 : BitVec 32 := 0#32
  let v31 : BitVec 1 := Scalar.cmpi .ne v30 c0_i32_18
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x40x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x40x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S2048x200 : S_.BroadcastsInDim S2048x200 (![] : Fin 0 → Fin S2048x200.rank)
  bcast_S2048x200_S2048x200x1_0_1 : S2048x200.BroadcastsInDim S2048x200x1 (![0, 1] : Fin 2 → Fin S2048x200x1.rank)
  slices_S256x512_S128x512_0_0 : S256x512.Slices ![0, 0] S128x512
  slices_S256x512_S128x512_128_0 : S256x512.Slices ![128, 0] S128x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x40x128_S64x40x128_0_0_0 : ∀ a, (![0, 0, 0] : Fin 3 → Nat) a + S64x40x128.size a ≤ S64x40x128.size a
  h_S64x40x128 : 0 < S64x40x128.numel
  shapeCasts_S64x40x128_S64x40x128 : S64x40x128.ShapeCasts S64x40x128
  shapeCasts_S64x40x128_S2560x128 : S64x40x128.ShapeCasts S2560x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S2560x512 : S1x512.Broadcasts S2560x512
  shapeCasts_S2560x512_S64x40x512 : S2560x512.ShapeCasts S64x40x512
  reduces_S64x40x512_S64x512 : S64x40x512.Reduces [1] S64x512
  gather_S6x128_S2048x200x1_S2048x200x128_2_0_n_n_0_2_1128_wf : GatherDims.WF S6x128 S2048x200x1 S2048x200x128 [2] [0] [] [0] [] 2 ![1, 128]
  gather_S100001x128_S2048x200x1_S2048x200x128_2_0_n_n_0_2_1128_wf : GatherDims.WF S100001x128 S2048x200x1 S2048x200x128 [2] [0] [] [0] [] 2 ![1, 128]
  dot_S2560x128_S128x512_S2560x512_1_0_0_1_n_n_wf : DotDims.WF S2560x128 S128x512 S2560x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x40x128.size a ≤ S2048x200x128.size a
  hwx0_0 : ∀ i : grid0.Coords, EltTy.bits .bf16 = 32 ∨ (Rect.block (s := S2048x200x128) S64x40x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x40x128.size a ≤ S2048x200x128.size a
  hwx0_1 : ∀ i : grid0.Coords, EltTy.bits .bf16 = 32 ∨ (Rect.block (s := S2048x200x128) S64x40x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S2048x512.size a
  hwx0_5 : ∀ i : grid0.Coords, EltTy.bits .f32 = 32 ∨ (Rect.block (s := S2048x512) S64x512.size (cc0_transform_5 i) (hinb0_5 i)).WholeWords (EltTy.packing .f32)

variable [Facts₀]

def gather_S6x128_S2048x200x1_S2048x200x128_2_0_n_n_0_2_1128 : GatherDims S6x128 S2048x200x1 S2048x200x128 where
  offsetDims := [2]
  collapsedSliceDims := [0]
  operandBatchingDims := []
  startIndicesBatchingDims := []
  startIndexMap := [0]
  indexVectorDim := 2
  sliceSizes := ![1, 128]
  wf := gather_S6x128_S2048x200x1_S2048x200x128_2_0_n_n_0_2_1128_wf
def gather_S100001x128_S2048x200x1_S2048x200x128_2_0_n_n_0_2_1128 : GatherDims S100001x128 S2048x200x1 S2048x200x128 where
  offsetDims := [2]
  collapsedSliceDims := [0]
  operandBatchingDims := []
  startIndicesBatchingDims := []
  startIndexMap := [0]
  indexVectorDim := 2
  sliceSizes := ![1, 128]
  wf := gather_S100001x128_S2048x200x1_S2048x200x128_2_0_n_n_0_2_1128_wf
def dot_S2560x128_S128x512_S2560x512_1_0_0_1_n_n : DotDims S2560x128 S128x512 S2560x512 where
  lhsContracting := [1]
  rhsContracting := [0]
  lhsNonContracting := [0]
  rhsNonContracting := [1]
  lhsBatch := []
  rhsBatch := []
  wf := dot_S2560x128_S128x512_S2560x512_1_0_0_1_n_n_wf

abbrev win0_0 : Pipeline.Window sig grid0 :=
  Pipeline.Window.ofSpec (Memref.whole main_v16) S64x40x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S64x40x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x200 : Shape := ⟨2, ![2048, 200]⟩
abbrev S6x128 : Shape := ⟨2, ![6, 128]⟩
abbrev S100001x128 : Shape := ⟨2, ![100001, 128]⟩
abbrev S256x512 : Shape := ⟨2, ![256, 512]⟩
abbrev S512 : Shape := ⟨1, ![512]⟩
abbrev S_ : Shape := ⟨0, ![]⟩
abbrev S2048x200x1 : Shape := ⟨3, ![2048, 200, 1]⟩
abbrev S2048x200x128 : Shape := ⟨3, ![2048, 200, 128]⟩
abbrev S2048x200x256 : Shape := ⟨3, ![2048, 200, 256]⟩
abbrev S2048x200x512 : Shape := ⟨3, ![2048, 200, 512]⟩
abbrev S1x1x512 : Shape := ⟨3, ![1, 1, 512]⟩
abbrev S2048x512 : Shape := ⟨2, ![2048, 512]⟩

abbrev nBuf : Space → Nat
  | .hbm => 37
  | .vmem => 0
  | .smem => 0
  | _ => 0

abbrev bufTy : (tb : Table) → Fin (tcTables nBuf tb) → BufTy
  | .hbm, ⟨0, _⟩ => ⟨S2048x200, .i32⟩
  | .hbm, ⟨1, _⟩ => ⟨S2048x200, .i32⟩
  | .hbm, ⟨2, _⟩ => ⟨S6x128, .f32⟩
  | .hbm, ⟨3, _⟩ => ⟨S100001x128, .f32⟩
  | .hbm, ⟨4, _⟩ => ⟨S256x512, .f32⟩
  | .hbm, ⟨5, _⟩ => ⟨S512, .f32⟩
  | .hbm, ⟨6, _⟩ => ⟨S_, .i32⟩
  | .hbm, ⟨7, _⟩ => ⟨S2048x200, .i32⟩
  | .hbm, ⟨8, _⟩ => ⟨S2048x200, .i1⟩
  | .hbm, ⟨9, _⟩ => ⟨S_, .i32⟩
  | .hbm, ⟨10, _⟩ => ⟨S2048x200, .i32⟩
  | .hbm, ⟨11, _⟩ => ⟨S2048x200, .i32⟩
  | .hbm, ⟨12, _⟩ => ⟨S2048x200, .i32⟩
  | .hbm, ⟨13, _⟩ => ⟨S2048x200x1, .i32⟩
  | .hbm, ⟨14, _⟩ => ⟨S2048x200x128, .f32⟩
  | .hbm, ⟨15, _⟩ => ⟨S_, .i32⟩
  | .hbm, ⟨16, _⟩ => ⟨S2048x200, .i32⟩
  | .hbm, ⟨17, _⟩ => ⟨S2048x200, .i1⟩
  | .hbm, ⟨18, _⟩ => ⟨S_, .i32⟩
  | .hbm, ⟨19, _⟩ => ⟨S2048x200, .i32⟩
  | .hbm, ⟨20, _⟩ => ⟨S2048x200, .i32⟩
  | .hbm, ⟨21, _⟩ => ⟨S2048x200, .i32⟩
  | .hbm, ⟨22, _⟩ => ⟨S2048x200x1, .i32⟩
  | .hbm, ⟨23, _⟩ => ⟨S2048x200x128, .f32⟩
  | .hbm, ⟨24, _⟩ => ⟨S2048x200x256, .f32⟩
  | .hbm, ⟨25, _⟩ => ⟨S2048x200x512, .f32⟩
  | .hbm, ⟨26, _⟩ => ⟨S1x1x512, .f32⟩
  | .hbm, ⟨27, _⟩ => ⟨S2048x200x512, .f32⟩
  | .hbm, ⟨28, _⟩ => ⟨S2048x200x512, .f32⟩
  | .hbm, ⟨29, _⟩ => ⟨S_, .f32⟩
  | .hbm, ⟨30, _⟩ => ⟨S2048x200x512, .f32⟩
  | .hbm, ⟨31, _⟩ => ⟨S2048x200x512, .f32⟩
  | .hbm, ⟨32, _⟩ => ⟨S_, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S_S2048x200 : S_.BroadcastsInDim S2048x200 (![] : Fin 0 → Fin S2048x200.rank)
  bcast_S2048x200_S2048x200x1_0_1 : S2048x200.BroadcastsInDim S2048x200x1 (![0, 1] : Fin 2 → Fin S2048x200x1.rank)
  concatenates_S2048x200x128_S2048x200x128_S2048x200x256_d2 : Shape.Concatenates [S2048x200x128, S2048x200x128] S2048x200x256 2
  bcast_S512_S1x1x512_2 : S512.BroadcastsInDim S1x1x512 (![2] : Fin 1 → Fin S1x1x512.rank)
  bcast_S1x1x512_S2048x200x512_0_1_2 : S1x1x512.BroadcastsInDim S2048x200x512 (![0, 1, 2] : Fin 3 → Fin S2048x200x512.rank)
  bcast_S_S2048x200x512 : S_.BroadcastsInDim S2048x200x512 (![] : Fin 0 → Fin S2048x200x512.rank)
  reducesTo_S2048x200x512_S2048x512_d1 : S2048x200x512.ReducesTo [1] S2048x512
  h_S_ : 0 < S_.numel
  bcast_S_S2048x512 : S_.BroadcastsInDim S2048x512 (![] : Fin 0 → Fin S2048x512.rank)
  gather_S6x128_S2048x200x1_S2048x200x128_2_0_n_n_0_2_1128_wf : GatherDims.WF S6x128 S2048x200x1 S2048x200x128 [2] [0] [] [0] [] 2 ![1, 128]
  gather_S100001x128_S2048x200x1_S2048x200x128_2_0_n_n_0_2_1128_wf : GatherDims.WF S100001x128 S2048x200x1 S2048x200x128 [2] [0] [] [0] [] 2 ![1, 128]
  dot_S2048x200x256_S256x512_S2048x200x512_2_0_01_1_n_n_wf : DotDims.WF S2048x200x256 S256x512 S2048x200x512 [2] [0] [0, 1] [1] [] []

variable [Facts₀]

def gather_S6x128_S2048x200x1_S2048x200x128_2_0_n_n_0_2_1128 : GatherDims S6x128 S2048x200x1 S2048x200x128 where
  offsetDims := [2]
  collapsedSliceDims := [0]
  operandBatchingDims := []
  startIndicesBatchingDims := []
  startIndexMap := [0]
  indexVectorDim := 2
  sliceSizes := ![1, 128]
  wf := gather_S6x128_S2048x200x1_S2048x200x128_2_0_n_n_0_2_1128_wf
def gather_S100001x128_S2048x200x1_S2048x200x128_2_0_n_n_0_2_1128 : GatherDims S100001x128 S2048x200x1 S2048x200x128 where
  offsetDims := [2]
  collapsedSliceDims := [0]
  operandBatchingDims := []
  startIndicesBatchingDims := []
  startIndexMap := [0]
  indexVectorDim := 2
  sliceSizes := ![1, 128]
  wf := gather_S100001x128_S2048x200x1_S2048x200x128_2_0_n_n_0_2_1128_wf
def dot_S2048x200x256_S256x512_S2048x200x512_2_0_01_1_n_n : DotDims S2048x200x256 S256x512 S2048x200x512 where
  lhsContracting := [2]
  rhsContracting := [0]
  lhsNonContracting := [0, 1]
  rhsNonContracting := [1]
  lhsBatch := []
  rhsBatch := []
  wf := dot_S2048x200x256_S256x512_S2048x200x512_2_0_01_1_n_n_wf

class Facts : Prop extends Facts₀ where

variable [Facts]
-- ==== Proof.CaseValue.lean ====
/-
  What each of the body's three cases leaves behind, as values of what it was given.

  The grid runs over 32 row blocks, five token tiles each. At a row block's first tile the body resets the running sum
  to zero before accumulating (so it leaves the accumulating store's value over the zero block); at the middle tiles it
  accumulates over the running sum the tile before left; at the last tile it accumulates likewise and then stores the
  running sum, scaled, into the output block. Every load reads a whole buffer and every store covers one, so what a
  buffer holds afterwards is the last store's value.
-/
import proofs.«173847_j43705587204338_1_alg».proof.Proof.Gen.KernelIdeal.Frame
import Idealize.ShloMosaic.Lib.Pipeline.Value
import Idealize.ShloMosaic.Lib.Tactic

noncomputable section

namespace Cert.KernelIdeal.CaseValue

open Cert.KernelIdeal Cert.KernelIdeal.Gen Idealize.ShloMosaic Idealize.ShloMosaic.TcCoe Idealize.SL.Sem

variable {F : FTy → Type} [FloatOps F] [Named F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves in the scratch the accumulating store's value over what the scratch held. -/
theorem sout_B (c : Dev nD) (i : grid0.Coords) (arg2 : Memref sig .tc .vmem S64x40x128 .bf16) (harg2 : arg2.IsWhole) (arg3 : Memref sig .tc .vmem S64x40x128 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S512 .f32) (harg6 : arg6.IsWhole) (arg7 : Memref sig .tc .vmem S64x512 .f32) (harg7 : arg7.IsWhole) (arg8 : Memref sig .tc .vmem S64x512 .f32) (harg8 : arg8.IsWhole) (hc0 : ¬cond0_0 i) (hc1 : ¬cond0_1 i)
    (x0 : Vec F S64x40x128 .bf16) (x1 : Vec F S64x40x128 .bf16) (x2 : Vec F S128x512 .bf16) (x3 : Vec F S128x512 .bf16) (x4 : Vec F S512 .f32) (xs0 : Vec F S64x512 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S64x40x128) hz3, View.ld_unit_zero (S := S128x512) hz2, View.ld_unit_zero (S := S512) hz1, View.ld_unit_zero (S := S64x512) hz2]

/-- The last tile leaves the same in the scratch, -/
theorem sout_C (c : Dev nD) (i : grid0.Coords) (arg2 : Memref sig .tc .vmem S64x40x128 .bf16) (harg2 : arg2.IsWhole) (arg3 : Memref sig .tc .vmem S64x40x128 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S512 .f32) (harg6 : arg6.IsWhole) (arg7 : Memref sig .tc .vmem S64x512 .f32) (harg7 : arg7.IsWhole) (arg8 : Memref sig .tc .vmem S64x512 .f32) (harg8 : arg8.IsWhole) (hc0 : ¬cond0_0 i) (hc1 : cond0_1 i)
    (x0 : Vec F S64x40x128 .bf16) (x1 : Vec F S64x40x128 .bf16) (x2 : Vec F S128x512 .bf16) (x3 : Vec F S128x512 .bf16) (x4 : Vec F S512 .f32) (xs0 : Vec F S64x512 .f32) :
    sout0_C_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S64x40x128) hz3, View.ld_unit_zero (S := S128x512) hz2, View.ld_unit_zero (S := S512) hz1, View.ld_unit_zero (S := S64x512) hz2]

/-- and in the output block the scaled running sum it has just stored. -/
theorem out_C (c : Dev nD) (i : grid0.Coords) (arg2 : Memref sig .tc .vmem S64x40x128 .bf16) (harg2 : arg2.IsWhole) (arg3 : Memref sig .tc .vmem S64x40x128 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S512 .f32) (harg6 : arg6.IsWhole) (arg7 : Memref sig .tc .vmem S64x512 .f32) (harg7 : arg7.IsWhole) (arg8 : Memref sig .tc .vmem S64x512 .f32) (harg8 : arg8.IsWhole) (hc0 : ¬cond0_0 i) (hc1 : cond0_1 i)
    (x0 : Vec F S64x40x128 .bf16) (x1 : Vec F S64x40x128 .bf16) (x2 : Vec F S128x512 .bf16) (x3 : Vec F S128x512 .bf16) (x4 : Vec F S512 .f32) (xs0 : Vec F S64x512 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S64x40x128) hz3, View.ld_unit_zero (S := S128x512) hz2, View.ld_unit_zero (S := S512) hz1, View.ld_unit_zero (S := S64x512) hz2]
  rw [View.readCov_unit_zero (S := S64x512) _ hz2]

/-- A first tile resets the scratch and then accumulates: it leaves the accumulating store's value over the zero block. -/
theorem sout_A (c : Dev nD) (i : grid0.Coords) (arg2 : Memref sig .tc .vmem S64x40x128 .bf16) (harg2 : arg2.IsWhole) (arg3 : Memref sig .tc .vmem S64x40x128 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S512 .f32) (harg6 : arg6.IsWhole) (arg7 : Memref sig .tc .vmem S64x512 .f32) (harg7 : arg7.IsWhole) (arg8 : Memref sig .tc .vmem S64x512 .f32) (harg8 : arg8.IsWhole) (hc0 : cond0_0 i) (hc1 : ¬cond0_1 i)
    (x0 : Vec F S64x40x128 .bf16) (x1 : Vec F S64x40x128 .bf16) (x2 : Vec F S128x512 .bf16) (x3 : Vec F S128x512 .bf16) (x4 : Vec F S512 .f32) :
    sout0_A_0 c i arg2 harg2 arg3 harg3 arg4 harg4 arg5 harg5 arg6 harg6 arg7 harg7 arg8 harg8 hc0 hc1 x0 x1 x2 x3 x4 = k0_pay2 x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S64x512) hz2]
  rw [View.readCov_unit_zero (S := S64x512) _ hz2]
  simp only [View.readAt_eq_ld, harg2.read_unread, harg3.read_unread, harg4.read_unread, harg5.read_unread, harg6.read_unread, harg7.read_unread, harg8.read_unread, View.ld_unit_zero (S := S64x40x128) hz3, View.ld_unit_zero (S := S128x512) hz2, View.ld_unit_zero (S := S512) hz1, View.ld_unit_zero (S := S64x512) hz2]

end Cert.KernelIdeal.CaseValue

end
-- ==== Proof.BodyValue.lean ====
/-
  What the kernel's body computes at one grid point, read index by index over the extended reals.

  The body holds a 64 × 40 block of tokens: two blocks of embedding rows `x0`, `x1` (64 × 40 × 128), the two halves `x2`, `x3` of the
  weight matrix (128 × 512 each), the bias `x4` (512) and the running sum `acc` (64 × 512). It flattens the token block to
  2560 rows (row 40r + l' is token l' of batch row r), multiplies by each half of the weights, adds the two products and the
  bias, rectifies, regroups the rows by batch row and sums the forty tokens of each: at (r, q) the new running sum is

      acc(r, q) + Σ_{l' < 40} max (Σ_d x0(r,l',d)·x2(d,q) + Σ_d x1(r,l',d)·x3(d,q) + x4(q)) 0.

  The reset block is zero everywhere, and the final scaling multiplies by the named constant, which denotes 1/200.
-/
import proofs.«173847_j43705587204338_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-- Token l' of batch row r sits at row 40r + l' of the flattened block. -/
abbrev flat (r : Fin 64) (l' : Fin 40) : Fin 2560 := ⟨40 * r.val + l'.val, by have := r.isLt; have := l'.isLt; omega⟩

/-- The flattened block at (40r + l', d) is the block at (r, l', d). -/
theorem flatten_apply {α : Type} (x : S64x40x128.Idx → α) (h : S64x40x128.ShapeCasts S2560x128) (r : Fin 64) (l' : Fin 40)
    (d : Fin 128) : shapeCast S2560x128 x h (ix2 (flat r l') d) = x (ix3 r l' d) :=
  shapeCast_apply x h _ _ (by
    rw [Shape.rowMajor_val_two, Shape.rowMajor_val_three]
    show (r.val * 40 + l'.val) * 128 + d.val = (40 * r.val + l'.val) * 128 + d.val
    omega)

/-- Regrouping the 2560 rows by batch row: (r, l', q) reads row 40r + l'. -/
theorem unflatten_apply {α : Type} (x : S2560x512.Idx → α) (h : S2560x512.ShapeCasts S64x40x512) (r : Fin 64) (l' : Fin 40)
    (q : Fin 512) : shapeCast S64x40x512 x h (ix3 r l' q) = x (ix2 (flat r l') q) :=
  shapeCast_apply x h _ _ (by
    rw [Shape.rowMajor_val_two, Shape.rowMajor_val_three]
    show (40 * r.val + l'.val) * 512 + q.val = (r.val * 40 + l'.val) * 512 + q.val
    omega)

/-- The operand indices of the product at output index `i` and inner position `κ`: the left operand is read at
    (i₀, κ), the right at (κ, i₁). -/
theorem lhs_0 (i : S2560x512.Idx) (κ : dot_S2560x128_S128x512_S2560x512_1_0_0_1_n_n.contr.Idx) : (dot_S2560x128_S128x512_S2560x512_1_0_0_1_n_n.lhsIdx i κ 0).val = (i 0).val := by
  unfold DotDims.lhsIdx
  rw [dif_neg (show ¬(0 : Fin S2560x128.rank) ∈ dot_S2560x128_S128x512_S2560x512_1_0_0_1_n_n.lhsBatch by decide), dif_pos (show (0 : Fin S2560x128.rank) ∈ dot_S2560x128_S128x512_S2560x512_1_0_0_1_n_n.lhsNonContracting by decide)]
  rfl
theorem lhs_1 (i : S2560x512.Idx) (κ : dot_S2560x128_S128x512_S2560x512_1_0_0_1_n_n.contr.Idx) : (dot_S2560x128_S128x512_S2560x512_1_0_0_1_n_n.lhsIdx i κ 1).val = (κ ⟨0, by decide⟩).val :=
  dot_S2560x128_S128x512_S2560x512_1_0_0_1_n_n.lhsIdx_val_of_single rfl i κ
theorem rhs_0 (i : S2560x512.Idx) (κ : dot_S2560x128_S128x512_S2560x512_1_0_0_1_n_n.contr.Idx) : (dot_S2560x128_S128x512_S2560x512_1_0_0_1_n_n.rhsIdx i κ 0).val = (κ ⟨0, by decide⟩).val :=
  dot_S2560x128_S128x512_S2560x512_1_0_0_1_n_n.rhsIdx_val_of_single rfl i κ
theorem rhs_1 (i : S2560x512.Idx) (κ : dot_S2560x128_S128x512_S2560x512_1_0_0_1_n_n.contr.Idx) : (dot_S2560x128_S128x512_S2560x512_1_0_0_1_n_n.rhsIdx i κ 1).val = (i 1).val := by
  unfold DotDims.rhsIdx
  rw [dif_neg (show ¬(1 : Fin S128x512.rank) ∈ dot_S2560x128_S128x512_S2560x512_1_0_0_1_n_n.rhsBatch by decide), dif_pos (show (1 : Fin S128x512.rank) ∈ dot_S2560x128_S128x512_S2560x512_1_0_0_1_n_n.rhsNonContracting by decide)]
  rfl

/-- The product of a 2560 × 128 block with a 128 × 512 one, accumulated into zero: at (ρ, q) the sum over the 128 inner
    positions of the products. -/
theorem mm_apply (l : FVec Ideal S2560x128 .bf16) (w : FVec Ideal S128x512 .bf16) (ρ : Fin 2560) (q : Fin 512) :
    matmul dot_S2560x128_S128x512_S2560x512_1_0_0_1_n_n none l w (constant S2560x512 .f32 0x00000000#32) (ix2 ρ q)
      = ∑ k : Fin 128, l (ix2 ρ k) * w (ix2 k q) := by
  simp only [matmul]
  rw [Ideal.matmul_constant_zero_apply, ← Equiv.sum_comp (contrEquiv1 dot_S2560x128_S128x512_S2560x512_1_0_0_1_n_n 128 rfl rfl).symm]
  refine Finset.sum_congr rfl fun k _ => ?_
  have hk := contrEquiv1_symm_val dot_S2560x128_S128x512_S2560x512_1_0_0_1_n_n 128 rfl rfl k
  have el : dot_S2560x128_S128x512_S2560x512_1_0_0_1_n_n.lhsIdx (ix2 ρ q) ((contrEquiv1 dot_S2560x128_S128x512_S2560x512_1_0_0_1_n_n 128 rfl rfl).symm k) = ix2 ρ k := funext fun a => Fin.ext (by
    match a with
    | ⟨0, _⟩ => exact lhs_0 _ _
    | ⟨1, _⟩ => exact (lhs_1 _ _).trans hk)
  have er : dot_S2560x128_S128x512_S2560x512_1_0_0_1_n_n.rhsIdx (ix2 ρ q) ((contrEquiv1 dot_S2560x128_S128x512_S2560x512_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The sum over the forty tokens of a batch row: at (r, q) the sum over l' of the entries (r, l', q). -/
theorem tokenSum_apply (v : FVec Ideal S64x40x512 .f32) (hφ : FKind.Formats .f32)
    (hacc : (0x00000000#32 : BitVec 32) = FKind.add.neutral .f32 hφ) (r : Fin 64) (q : Fin 512) :
    multiReduction .add [1] S64x512 v 0x00000000#32 reduces_S64x40x512_S64x512 hφ hacc (ix2 r q)
      = ∑ l' : Fin 40, v (ix3 r l' q) := by
  refine (Ideal.multiReduction_add_single v 0x00000000#32 reduces_S64x40x512_S64x512 hφ hacc (ix2 r q)).trans ?_
  refine Finset.sum_congr rfl fun l' _ => congrArg v (funext fun a => Fin.ext ?_)
  match a with
  | ⟨0, _⟩ => rfl
  | ⟨1, _⟩ => rfl
  | ⟨2, _⟩ => rfl

/-- The named constant of the final scaling denotes the rational 1/200. -/
theorem inv_200 : Named.named (F := Ideal) κ "inv_200" (φ := .f32) 0x3BA3D70A#32 = ((1 / 200 : ℝ) : EReal) :=
  IdealRules.named_const.ideal_named_scalar _ _ _ _ rfl

/-- The reset block is zero at every index. -/
theorem pay1_apply (y : S64x512.Idx) : k0_pay1 (F := Ideal) y = 0 := by
  unfold k0_pay1
  simp only [shapeCast_self]
  exact Ideal.ofBits_zero_f32

/-- The final scaling multiplies each entry by 1/200. -/
theorem pay3_apply (v : FVec Ideal S64x512 .f32) (y : S64x512.Idx) :
    k0_pay3 (F := Ideal) v y = v y * ((1 / 200 : ℝ) : EReal) := by
  unfold k0_pay3
  show v y * Named.named (F := Ideal) κ "inv_200" (φ := .f32) 0x3BA3D70A#32 = _
  rw [inv_200]

/-- The accumulating store's value at (r, q): the running sum plus the forty rectified affine forms of batch row r. -/
theorem pay2_apply (x0 x1 : FVec Ideal S64x40x128 .bf16) (x2 x3 : FVec Ideal S128x512 .bf16) (x4 : FVec Ideal S512 .f32)
    (acc : FVec Ideal S64x512 .f32) (r : Fin 64) (q : Fin 512) :
    k0_pay2 (F := Ideal) x0 x1 x2 x3 x4 acc (ix2 r q)
      = acc (ix2 r q) + ∑ l' : Fin 40, max ((∑ d : Fin 128, x0 (ix3 r l' d) * x2 (ix2 d q)
          + ∑ d : Fin 128, x1 (ix3 r l' d) * x3 (ix2 d q)) + x4 (ix1 q)) 0 := by
  unfold k0_pay2
  simp only [shapeCast_self]
  refine congrArg (acc (ix2 r q) + ·) ((tokenSum_apply _ _ _ r q).trans (Finset.sum_congr rfl fun l' _ => ?_))
  rw [unflatten_apply]
  show max ((matmul dot_S2560x128_S128x512_S2560x512_1_0_0_1_n_n none _ x2 (constant S2560x512 .f32 0x00000000#32) (ix2 (flat r l') q)
      + matmul dot_S2560x128_S128x512_S2560x512_1_0_0_1_n_n none _ x3 (constant S2560x512 .f32 0x00000000#32) (ix2 (flat r l') q))
      + broadcastTo S2560x512 (shapeCast S1x512 x4 shapeCasts_S512_S1x512) broadcasts_S1x512_S2560x512 (ix2 (flat r l') q))
      (Ideal.ofBits .f32 0x00000000#32) = _
  rw [mm_apply, mm_apply, broadcastTo_1b_ab_apply, shapeCast_a_1a_apply, Ideal.ofBits_zero_f32]
  simp only [flatten_apply]

end Cert.KernelIdeal.BodyValue

end
-- ==== Proof.Spec.lean ====
/-
  The mathematics both programs compute, over the extended reals, with no program in sight.

  A token (p, l) carries two embedding rows A(p, l, ·) and B(p, l, ·) of length 128. Its activation at hidden unit q is
  the rectified affine form  max (Σ_d A(p,l,d)·W(d,q) + Σ_d B(p,l,d)·W(128+d,q) + b(q)) 0  — the product of the joined row
  (A | B) of length 256 with column q of W, cut at the join. The result at (p, q) is the mean over the 200 tokens of row p:
  their sum times 1/200.

  The sum over the 200 tokens is taken forty at a time: tile j holds tokens 40j … 40j+39, and the running sum after tile j
  is the sum of the tiles 0 … j. Addition of extended reals is commutative and associative, so after the fifth tile the
  running sum is the sum over all 200 tokens (`accN_four`), and a sum over 256 terms is the sum of its two halves
  (`sum_halves`). Nothing here needs the entries to be finite.
-/
import Idealize.ShloMosaic.PureOps.Ideal.Laws
import Idealize.ShloMosaic.Lib.ValueIdx

noncomputable section

namespace Cert.Spec

open Idealize.ShloMosaic Idealize.ShloMosaic.ValueIdx

/-- Row `d` of the upper half of the weight matrix, -/
abbrev lo (d : Fin 128) : Fin 256 := ⟨d.val, by have := d.isLt; omega⟩
/-- and row `d` of its lower half. -/
abbrev hi (d : Fin 128) : Fin 256 := ⟨128 + d.val, by have := d.isLt; omega⟩

/-- A sum over 256 terms is the sum over the first 128 plus the sum over the last 128. -/
theorem sum_halves {M : Type*} [AddCommMonoid M] (f : Fin 256 → M) :
    ∑ k : Fin 256, f k = ∑ d : Fin 128, f (lo d) + ∑ d : Fin 128, f (hi d) := by
  have h := Fin.sum_univ_add (a := 128) (b := 128) f
  exact h.trans rfl

variable (A B : (⟨3, ![2048, 200, 128]⟩ : Shape).Idx → EReal) (W : (⟨2, ![256, 512]⟩ : Shape).Idx → EReal)
  (b : (⟨1, ![512]⟩ : Shape).Idx → EReal)

/-- The activation of token (p, l) at hidden unit q. -/
def act (p : Fin 2048) (l : Fin 200) (q : Fin 512) : EReal :=
  max ((∑ d : Fin 128, A (ix3 p l d) * W (ix2 (lo d) q) + ∑ d : Fin 128, B (ix3 p l d) * W (ix2 (hi d) q)) + b (ix1 q)) 0

/-- Token `l'` of tile `j` (tiles of forty tokens; total in `j`, and the token 40j + l' for j < 5). -/
def tok (j : ℕ) (l' : Fin 40) : Fin 200 := ⟨(40 * j + l'.val) % 200, Nat.mod_lt _ (by decide)⟩

/-- Row `r` of row block `i` (blocks of 64 rows; total in `i`, and the row 64i + r for i < 32). -/
def row (i : ℕ) (r : Fin 64) : Fin 2048 := ⟨(64 * i + r.val) % 2048, Nat.mod_lt _ (by decide)⟩

/-- The sum of the activations of tile `j`'s forty tokens. -/
def tile (p : Fin 2048) (q : Fin 512) (j : ℕ) : EReal := ∑ l' : Fin 40, act A B W b p (tok j l') q

/-- The running sum after tile `j`: the tiles 0 … j. -/
def accN (p : Fin 2048) (q : Fin 512) (j : ℕ) : EReal := ∑ j' ∈ Finset.range (j + 1), tile A B W b p q j'

/-- The mean over the 200 tokens of row p at hidden unit q: their sum times 1/200. -/
def pooled : (⟨2, ![2048, 512]⟩ : Shape).Idx → EReal :=
  fun i => (∑ l : Fin 200, act A B W b (i 0) l (i 1)) * ((1 / 200 : ℝ) : EReal)

theorem accN_zero (p : Fin 2048) (q : Fin 512) : accN A B W b p q 0 = tile A B W b p q 0 := by
  unfold accN; rw [Finset.sum_range_one]

theorem accN_succ (p : Fin 2048) (q : Fin 512) (j : ℕ) :
    accN A B W b p q (j + 1) = accN A B W b p q j + tile A B W b p q (j + 1) := by
  unfold accN; rw [Finset.sum_range_succ]

/-- The 200 tokens are the five tiles of forty: a sum over them is the sum of the five tile sums. -/
theorem sum_tiles {M : Type*} [AddCommMonoid M] (f : Fin 200 → M) :
    ∑ l : Fin 200, f l = ∑ j : Fin 5, ∑ l' : Fin 40, f (tok j.val l') := by
  have e : ∑ l : Fin 200, f l = ∑ x : Fin 5 × Fin 40, f (finProdFinEquiv x) :=
    (Equiv.sum_comp (finProdFinEquiv (m := 5) (n := 40)) f).symm
  rw [e, Fintype.sum_prod_type]
  refine Finset.sum_congr rfl fun j _ => Finset.sum_congr rfl fun l' _ => congrArg f (Fin.ext ?_)
  have hj := j.isLt
  have hl := l'.isLt
  show l'.val + 40 * j.val = (40 * j.val + l'.val) % 200
  omega

/-- After the fifth tile the running sum is the sum over all 200 tokens. -/
theorem accN_four (p : Fin 2048) (q : Fin 512) : accN A B W b p q 4 = ∑ l : Fin 200, act A B W b p l q := by
  unfold accN tile
  rw [Finset.sum_range, sum_tiles]

end Cert.Spec

end
-- ==== Proof.PointValue.lean ====
/-
  One grid point's accumulation, in the specification's words.

  When the blocks the body holds at a point are the tokens of tile j of row block i — the embedding blocks read rows
  64i + r and tokens 40j + l' of the two gathered arrays, the two weight blocks are the upper and lower halves of the
  weight matrix, the bias block is the bias — the accumulating store's value at (r, q) is the running sum it was given
  plus tile j's sum of activations for row 64i + r.
-/
import proofs.«173847_j43705587204338_1_alg».proof.Proof.BodyValue
import proofs.«173847_j43705587204338_1_alg».proof.Proof.Spec

noncomputable section

namespace Cert.KernelIdeal.PointValue

open Cert.KernelIdeal Cert.KernelIdeal.Gen Idealize.ShloMosaic Idealize.ShloMosaic.ValueIdx Cert.Spec

theorem point_value (A B : (⟨3, ![2048, 200, 128]⟩ : Shape).Idx → EReal) (W : (⟨2, ![256, 512]⟩ : Shape).Idx → EReal)
    (b : (⟨1, ![512]⟩ : Shape).Idx → EReal)
    (x0 x1 : FVec Ideal S64x40x128 .bf16) (x2 x3 : FVec Ideal S128x512 .bf16) (x4 : FVec Ideal S512 .f32)
    (acc : FVec Ideal S64x512 .f32) (i j : ℕ)
    (h0 : ∀ (r : Fin 64) (l' : Fin 40) (d : Fin 128), x0 (ix3 r l' d) = A (ix3 (row i r) (tok j l') d))
    (h1 : ∀ (r : Fin 64) (l' : Fin 40) (d : Fin 128), x1 (ix3 r l' d) = B (ix3 (row i r) (tok j l') d))
    (h2 : ∀ (d : Fin 128) (q : Fin 512), x2 (ix2 d q) = W (ix2 (lo d) q))
    (h3 : ∀ (d : Fin 128) (q : Fin 512), x3 (ix2 d q) = W (ix2 (hi d) q))
    (h4 : ∀ q : Fin 512, x4 (ix1 q) = b (ix1 q)) (r : Fin 64) (q : Fin 512) :
    k0_pay2 (F := Ideal) x0 x1 x2 x3 x4 acc (ix2 r q) = acc (ix2 r q) + tile A B W b (row i r) q j := by
  rw [BodyValue.pay2_apply]
  unfold tile act
  simp only [h0, h1, h2, h3, h4]

end Cert.KernelIdeal.PointValue

end
-- ==== Proof.Blocks.lean ====
/-
  The blocks the kernel's windows hand the body at a grid point, and the arrays they are cut from.

  Point t of the 32 × 5 grid is tile t % 5 of row block t / 5. The two embedding windows cut rows 64(t/5) … and tokens
  40(t%5) … out of the two gathered arrays; the two weight windows and the bias window hold their whole arrays at every
  point; the output window's block is row block t / 5. The gathered arrays are the reference's own gathers of the embedding
  tables (the change of float format on the way into the kernel is the identity on extended reals), and the two weight
  arrays are the upper and lower 128 rows of the weight matrix.
-/
import proofs.«173847_j43705587204338_1_alg».proof.Proof.Gen.KernelIdeal.Frame
import proofs.«173847_j43705587204338_1_alg».proof.Proof.Gen.ReferenceIdeal.Read
import proofs.«173847_j43705587204338_1_alg».proof.Proof.Spec
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-- The printed index maps, decided once over the grid's 160 points. -/
theorem idx_facts : ∀ t : Fin cfg0.N,
    win0_0.index t (0 : Fin 3) = t.val / 5 ∧ win0_0.index t (1 : Fin 3) = t.val % 5 ∧ win0_0.index t (2 : Fin 3) = 0
    ∧ win0_1.index t (0 : Fin 3) = t.val / 5 ∧ win0_1.index t (1 : Fin 3) = t.val % 5 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val / 5 ∧ win0_5.index t (1 : Fin 2) = 0 :=
  (by decide +kernel : ∀ t : Fin grid0.N, _)

section Reads
variable {F : FTy → Type} [FloatOps F] [Named F]
variable (m : (ℓ : Loc nD τ sig) → Buf (Elt F) ℓ)

/-- Embedding window 0 at point t reads rows 64(t/5) + r and tokens 40(t%5) + l' of its array. -/
theorem blk0 (c : Dev nD) (t : Fin cfg0.N) (r : Fin 64) (l' : Fin 40) (d : Fin 128) :
    iblk m c 0 t (ix3 r l' d) = V m c main_v16 (ix3 (row (t.val / 5) r) (tok (t.val % 5) l') d) := by
  obtain ⟨e0, e1, e2, -⟩ := idx_facts t
  have hN : t.val < 160 := lt_of_lt_of_eq t.isLt (show cfg0.N = 160 from N_0)
  have hr := r.isLt
  have hl := l'.isLt
  unfold iblk
  rw [View.read_apply]
  show V m c main_v16 (((cfg0.win 0).blk t).view.emb (ix3 r l' d)) = _
  refine congrArg (V m c main_v16) (funext fun a => Fin.ext ?_)
  match a with
  | ⟨0, _⟩ => show win0_0.index t (0 : Fin 3) * 64 + 1 * r.val = (64 * (t.val / 5) + r.val) % 2048; rw [e0]; omega
  | ⟨1, _⟩ => show win0_0.index t (1 : Fin 3) * 40 + 1 * l'.val = (40 * (t.val % 5) + l'.val) % 200; rw [e1]; omega
  | ⟨2, _⟩ => show win0_0.index t (2 : Fin 3) * 128 + 1 * d.val = d.val; rw [e2]; omega

/-- Embedding window 1 likewise, of the second gathered array. -/
theorem blk1 (c : Dev nD) (t : Fin cfg0.N) (r : Fin 64) (l' : Fin 40) (d : Fin 128) :
    iblk m c 1 t (ix3 r l' d) = V m c main_v17 (ix3 (row (t.val / 5) r) (tok (t.val % 5) l') d) := by
  obtain ⟨-, -, -, e0, e1, e2, -⟩ := idx_facts t
  have hN : t.val < 160 := lt_of_lt_of_eq t.isLt (show cfg0.N = 160 from N_0)
  have hr := r.isLt
  have hl := l'.isLt
  unfold iblk
  rw [View.read_apply]
  show V m c main_v17 (((cfg0.win 1).blk t).view.emb (ix3 r l' d)) = _
  refine congrArg (V m c main_v17) (funext fun a => Fin.ext ?_)
  match a with
  | ⟨0, _⟩ => show win0_1.index t (0 : Fin 3) * 64 + 1 * r.val = (64 * (t.val / 5) + r.val) % 2048; rw [e0]; omega
  | ⟨1, _⟩ => show win0_1.index t (1 : Fin 3) * 40 + 1 * l'.val = (40 * (t.val % 5) + l'.val) % 200; rw [e1]; omega
  | ⟨2, _⟩ => show win0_1.index t (2 : Fin 3) * 128 + 1 * d.val = d.val; rw [e2]; omega

/-- The weight windows hold their whole arrays at every point, -/
theorem blk2 (c : Dev nD) (t : Fin cfg0.N) (d : Fin 128) (q : Fin 512) :
    iblk m c 2 t (ix2 d q) = V m c main_v18 (ix2 d q) := by
  obtain ⟨-, -, -, -, -, -, e0, e1, -⟩ := idx_facts t
  unfold iblk
  rw [View.read_apply]
  show V m c main_v18 (((cfg0.win 2).blk t).view.emb (ix2 d q)) = _
  refine congrArg (V m c main_v18) (funext fun a => Fin.ext ?_)
  match a with
  | ⟨0, _⟩ => show win0_2.index t (0 : Fin 2) * 128 + 1 * d.val = d.val; rw [e0]; omega
  | ⟨1, _⟩ => show win0_2.index t (1 : Fin 2) * 512 + 1 * q.val = q.val; rw [e1]; omega

theorem blk3 (c : Dev nD) (t : Fin cfg0.N) (d : Fin 128) (q : Fin 512) :
    iblk m c 3 t (ix2 d q) = V m c main_v19 (ix2 d q) := by
  obtain ⟨-, -, -, -, -, -, -, -, e0, e1, -⟩ := idx_facts t
  unfold iblk
  rw [View.read_apply]
  show V m c main_v19 (((cfg0.win 3).blk t).view.emb (ix2 d q)) = _
  refine congrArg (V m c main_v19) (funext fun a => Fin.ext ?_)
  match a with
  | ⟨0, _⟩ => show win0_3.index t (0 : Fin 2) * 128 + 1 * d.val = d.val; rw [e0]; omega
  | ⟨1, _⟩ => show win0_3.index t (1 : Fin 2) * 512 + 1 * q.val = q.val; rw [e1]; omega

/-- and the bias window the bias, as launched. -/
theorem blk4 (c : Dev nD) (t : Fin cfg0.N) (q : Fin 512) :
    iblk m c 4 t (ix1 q) = m ((c : Thread nD τ).loc main_arg5) (ix1 q) := by
  obtain ⟨-, -, -, -, -, -, -, -, -, -, e0, -⟩ := idx_facts t
  rw [← V_main_arg5 m c]
  unfold iblk
  rw [View.read_apply]
  show V m c main_arg5 (((cfg0.win 4).blk t).view.emb (ix1 q)) = _
  refine congrArg (V m c main_arg5) (funext fun a => Fin.ext ?_)
  match a with
  | ⟨0, _⟩ => show win0_4.index t (0 : Fin 1) * 512 + 1 * q.val = q.val; rw [e0]; omega

end Reads

section Host
variable (m : (ℓ : Loc nD τ sig) → Buf (Elt Ideal) ℓ)

/-- The first gathered array, as the region finds it, is the reference's gather of the ratings table. -/
theorem V16 (c : Dev nD) : (V m c main_v16 : S2048x200x128.Idx → Ideal .bf16)
    = Cert.ReferenceIdeal.Read.val_main_v6 (F := Ideal) (m ((c : Thread nD τ).loc main_arg0)) (m ((c : Thread nD τ).loc main_arg2)) := by
  dsimp only [V, hostOps0]
  after_results
  rfl

/-- The second is its gather of the id table. -/
theorem V17 (c : Dev nD) : (V m c main_v17 : S2048x200x128.Idx → Ideal .bf16)
    = Cert.ReferenceIdeal.Read.val_main_v13 (F := Ideal) (m ((c : Thread nD τ).loc main_arg1)) (m ((c : Thread nD τ).loc main_arg3)) := by
  dsimp only [V, hostOps0]
  after_results
  rfl

/-- The first weight array is the upper 128 rows of the weight matrix, -/
theorem V18 (c : Dev nD) (d : Fin 128) (q : Fin 512) :
    V m c main_v18 (ix2 d q) = m ((c : Thread nD τ).loc main_arg4) (ix2 (lo d) q) := by
  have e : @Eq (S128x512.Idx → Ideal .bf16) (V m c main_v18)
      (truncf (F := Ideal) .bf16 (extractStridedSlice S128x512 ![0, 0] (m ((c : Thread nD τ).loc main_arg4)) slices_S256x512_S128x512_0_0) bitsLt_bf16_f32) := by
    dsimp only [V, hostOps0]
    after_results
  rw [e]
  show extractStridedSlice S128x512 ![0, 0] (m ((c : Thread nD τ).loc main_arg4)) slices_S256x512_S128x512_0_0 (ix2 d q) = _
  exact slice2_axis0_apply 0 _ _ d q (lo d) (by show d.val = 0 + d.val; omega)

/-- and the second its lower 128 rows. -/
theorem V19 (c : Dev nD) (d : Fin 128) (q : Fin 512) :
    V m c main_v19 (ix2 d q) = m ((c : Thread nD τ).loc main_arg4) (ix2 (hi d) q) := by
  have e : @Eq (S128x512.Idx → Ideal .bf16) (V m c main_v19)
      (truncf (F := Ideal) .bf16 (extractStridedSlice S128x512 ![128, 0] (m ((c : Thread nD τ).loc main_arg4)) slices_S256x512_S128x512_128_0) bitsLt_bf16_f32) := by
    dsimp only [V, hostOps0]
    after_results
  rw [e]
  show extractStridedSlice S128x512 ![128, 0] (m ((c : Thread nD τ).loc main_arg4)) slices_S256x512_S128x512_128_0 (ix2 d q) = _
  exact slice2_axis0_apply 128 _ _ d q (hi d) rfl

end Host

end Cert.KernelIdeal.Blocks

end
-- ==== Proof.KernelValue.lean ====
/-
  The kernel's result array, as one function of the launch memory.

  Over the grid's 160 points the scratch accumulator holds, after tile j of row block i, the sum of the tiles 0 … j of
  each of the block's rows (by induction on the point: a first tile starts from zero, every later tile adds its own sum to
  what the tile before left). At a row block's last tile the body stores the accumulator times 1/200 into the output block,
  which is then written back: rows 64i … 64i+63 of the result receive the mean over all 200 tokens. The 32 row blocks
  tile the result, so after the run it is the mean-pooled activation everywhere.
-/
import proofs.«173847_j43705587204338_1_alg».proof.Proof.CaseValue
import proofs.«173847_j43705587204338_1_alg».proof.Proof.PointValue
import proofs.«173847_j43705587204338_1_alg».proof.Proof.Blocks
import proofs.«173847_j43705587204338_1_alg».proof.Proof.Gen.KernelIdeal.Value
import Idealize.ShloMosaic.Lib.Pipeline.Value

noncomputable section

namespace Cert.KernelIdeal.KernelValue

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The four arrays of the specification, read off the launch memory: the two gathered embedding arrays, the weight
    matrix and the bias. -/
def Aof (c : Dev nD) : (⟨3, ![2048, 200, 128]⟩ : Shape).Idx → EReal :=
  Cert.ReferenceIdeal.Read.val_main_v6 (F := Ideal) (m ((c : Thread nD τ).loc main_arg0)) (m ((c : Thread nD τ).loc main_arg2))
def Bof (c : Dev nD) : (⟨3, ![2048, 200, 128]⟩ : Shape).Idx → EReal :=
  Cert.ReferenceIdeal.Read.val_main_v13 (F := Ideal) (m ((c : Thread nD τ).loc main_arg1)) (m ((c : Thread nD τ).loc main_arg3))
def Wof (c : Dev nD) : (⟨2, ![256, 512]⟩ : Shape).Idx → EReal := m ((c : Thread nD τ).loc main_arg4)
def bof (c : Dev nD) : (⟨1, ![512]⟩ : Shape).Idx → EReal := m ((c : Thread nD τ).loc main_arg5)

/-! ## The blocks at a point, in the specification's arrays -/

theorem hA (c : Dev nD) (t : Fin cfg0.N) (r : Fin 64) (l' : Fin 40) (d : Fin 128) :
    iblk m c 0 t (ix3 r l' d) = Aof m c (ix3 (row (t.val / 5) r) (tok (t.val % 5) l') d) :=
  (Blocks.blk0 m c t r l' d).trans (congrFun (Blocks.V16 m c) _)

theorem hB (c : Dev nD) (t : Fin cfg0.N) (r : Fin 64) (l' : Fin 40) (d : Fin 128) :
    iblk m c 1 t (ix3 r l' d) = Bof m c (ix3 (row (t.val / 5) r) (tok (t.val % 5) l') d) :=
  (Blocks.blk1 m c t r l' d).trans (congrFun (Blocks.V17 m c) _)

theorem hW2 (c : Dev nD) (t : Fin cfg0.N) (d : Fin 128) (q : Fin 512) :
    iblk m c 2 t (ix2 d q) = Wof m c (ix2 (lo d) q) :=
  (Blocks.blk2 m c t d q).trans (Blocks.V18 m c d q)

theorem hW3 (c : Dev nD) (t : Fin cfg0.N) (d : Fin 128) (q : Fin 512) :
    iblk m c 3 t (ix2 d q) = Wof m c (ix2 (hi d) q) :=
  (Blocks.blk3 m c t d q).trans (Blocks.V19 m c d q)

theorem hb (c : Dev nD) (t : Fin cfg0.N) (q : Fin 512) : iblk m c 4 t (ix1 q) = bof m c (ix1 q) :=
  Blocks.blk4 m c t q

/-! ## What the scratch holds after each point -/

/-- A first tile leaves tile 0's sums. -/
theorem stepA (c : Dev nD) (t : Fin cfg0.N) (h0 : t.val % 5 = 0) (h1 : ¬t.val % 5 = 4) (r : Fin 64) (q : Fin 512) :
    (outsAt0 m c t.val t.isLt).2 (ix2 r q) = accN (Aof m c) (Bof m c) (Wof m c) (bof m c) (row (t.val / 5) r) q (t.val % 5) := by
  rw [outsAt0_A m c t h0 h1]
  dsimp only
  rw [CaseValue.sout_A]
  refine (PointValue.point_value (Aof m c) (Bof m c) (Wof m c) (bof m c) (iblk m c 0 t) (iblk m c 1 t) (iblk m c 2 t) (iblk m c 3 t) (iblk m c 4 t) k0_pay1 (t.val / 5) (t.val % 5) (hA m c t) (hB m c t) (hW2 m c t) (hW3 m c t) (hb m c t) r q).trans ?_
  rw [BodyValue.pay1_apply, zero_add, h0, accN_zero]

/-- A middle tile adds its sums to what the tile before left, -/
theorem stepB (c : Dev nD) (t : Fin cfg0.N) (h0 : ¬t.val % 5 = 0) (h1 : ¬t.val % 5 = 4) (r : Fin 64) (q : Fin 512) :
    (outsAt0 m c t.val t.isLt).2 (ix2 r q)
      = (outsAt0 m c (t.val - 1) (Nat.lt_of_le_of_lt (Nat.sub_le _ _) t.isLt)).2 (ix2 r q) + tile (Aof m c) (Bof m c) (Wof m c) (bof m c) (row (t.val / 5) r) q (t.val % 5) := by
  rw [outsAt0_B m c t h0 h1]
  dsimp only
  rw [CaseValue.sout_B]
  exact PointValue.point_value (Aof m c) (Bof m c) (Wof m c) (bof m c) (iblk m c 0 t) (iblk m c 1 t) (iblk m c 2 t) (iblk m c 3 t) (iblk m c 4 t) (outsAt0 m c (t.val - 1) (Nat.lt_of_le_of_lt (Nat.sub_le _ _) t.isLt)).2 (t.val / 5) (t.val % 5) (hA m c t) (hB m c t) (hW2 m c t) (hW3 m c t) (hb m c t) r q

/-- and so does the last tile, -/
theorem stepC (c : Dev nD) (t : Fin cfg0.N) (h0 : ¬t.val % 5 = 0) (h1 : t.val % 5 = 4) (r : Fin 64) (q : Fin 512) :
    (outsAt0 m c t.val t.isLt).2 (ix2 r q)
      = (outsAt0 m c (t.val - 1) (Nat.lt_of_le_of_lt (Nat.sub_le _ _) t.isLt)).2 (ix2 r q) + tile (Aof m c) (Bof m c) (Wof m c) (bof m c) (row (t.val / 5) r) q (t.val % 5) := by
  rw [outsAt0_C m c t h0 h1]
  dsimp only
  rw [CaseValue.sout_C]
  exact PointValue.point_value (Aof m c) (Bof m c) (Wof m c) (bof m c) (iblk m c 0 t) (iblk m c 1 t) (iblk m c 2 t) (iblk m c 3 t) (iblk m c 4 t) (outsAt0 m c (t.val - 1) (Nat.lt_of_le_of_lt (Nat.sub_le _ _) t.isLt)).2 (t.val / 5) (t.val % 5) (hA m c t) (hB m c t) (hW2 m c t) (hW3 m c t) (hb m c t) r q

/-- which also stores that running sum, times 1/200, into the output block. -/
theorem outC (c : Dev nD) (t : Fin cfg0.N) (h0 : ¬t.val % 5 = 0) (h1 : t.val % 5 = 4) (r : Fin 64) (q : Fin 512) :
    (outsAt0 m c t.val t.isLt).1 (ix2 r q)
      = ((outsAt0 m c (t.val - 1) (Nat.lt_of_le_of_lt (Nat.sub_le _ _) t.isLt)).2 (ix2 r q) + tile (Aof m c) (Bof m c) (Wof m c) (bof m c) (row (t.val / 5) r) q (t.val % 5)) * ((1 / 200 : ℝ) : EReal) := by
  rw [outsAt0_C m c t h0 h1]
  dsimp only
  rw [CaseValue.out_C, BodyValue.pay3_apply]
  exact congrArg (· * ((1 / 200 : ℝ) : EReal)) (PointValue.point_value (Aof m c) (Bof m c) (Wof m c) (bof m c) (iblk m c 0 t) (iblk m c 1 t) (iblk m c 2 t) (iblk m c 3 t) (iblk m c 4 t) (outsAt0 m c (t.val - 1) (Nat.lt_of_le_of_lt (Nat.sub_le _ _) t.isLt)).2 (t.val / 5) (t.val % 5) (hA m c t) (hB m c t) (hW2 m c t) (hW3 m c t) (hb m c t) r q)

/-- After point n — tile n % 5 of row block n / 5 — the scratch holds, at (r, q), the sum of the tiles 0 … n % 5 of row
    64(n/5) + r. -/
theorem scratch_eq (c : Dev nD) : ∀ (n : ℕ) (h : n < cfg0.N) (r : Fin 64) (q : Fin 512),
    (outsAt0 m c n h).2 (ix2 r q) = accN (Aof m c) (Bof m c) (Wof m c) (bof m c) (row (n / 5) r) q (n % 5)
  | 0, h, r, q => stepA m c ⟨0, h⟩ (Nat.zero_mod 5) (show ¬(0 : ℕ) % 5 = 4 by decide) r q
  | n + 1, h, r, q => by
    have hN : n + 1 < 160 := lt_of_lt_of_eq h (show cfg0.N = 160 from N_0)
    by_cases h0 : (n + 1) % 5 = 0
    · exact stepA m c ⟨n + 1, h⟩ h0 (show ¬(n + 1) % 5 = 4 by omega) r q
    · have ih := scratch_eq c n (Nat.lt_of_succ_lt h) r q
      have hdiv : n / 5 = (n + 1) / 5 := by omega
      obtain ⟨j, hj⟩ : ∃ j, (n + 1) % 5 = j + 1 := ⟨(n + 1) % 5 - 1, by omega⟩
      have hj' : n % 5 = j := by omega
      have step : (outsAt0 m c (n + 1) h).2 (ix2 r q)
          = (outsAt0 m c n (Nat.lt_of_succ_lt h)).2 (ix2 r q) + tile (Aof m c) (Bof m c) (Wof m c) (bof m c) (row ((n + 1) / 5) r) q ((n + 1) % 5) := by
        by_cases h1 : (n + 1) % 5 = 4
        · exact stepC m c ⟨n + 1, h⟩ h0 h1 r q
        · exact stepB m c ⟨n + 1, h⟩ h0 h1 r q
      rw [step, ih, hdiv, hj', hj, accN_succ]

/-! ## The result array -/

/-- The result: at (p, q) the mean over row p's 200 tokens of their activations at hidden unit q. -/
def result (c : Dev nD) : Buf (Elt Ideal) ((c : Thread nD τ).loc main_v20) := pooled (Aof m c) (Bof m c) (Wof m c) (bof m c)

/-- At a row block's last tile the output block holds the block's rows of the result. -/
theorem out_last (c : Dev nD) (t : Fin cfg0.N) (h1 : t.val % 5 = 4) (r : Fin 64) (q : Fin 512) :
    (outsAt0 m c t.val t.isLt).1 (ix2 r q) = pooled (Aof m c) (Bof m c) (Wof m c) (bof m c) (ix2 (row (t.val / 5) r) q) := by
  have hN : t.val < 160 := lt_of_lt_of_eq t.isLt (show cfg0.N = 160 from N_0)
  have h0 : ¬t.val % 5 = 0 := by omega
  have hp : t.val - 1 < cfg0.N := Nat.lt_of_le_of_lt (Nat.sub_le _ _) t.isLt
  have hprev := scratch_eq m c (t.val - 1) hp r q
  have hdiv : (t.val - 1) / 5 = t.val / 5 := by omega
  have hmod : (t.val - 1) % 5 = 3 := by omega
  rw [outC m c t h0 h1 r q, hprev, hdiv, hmod, h1, ← accN_succ, accN_four]
  rfl

/-- So what a write-back writes is its block of the result. -/
theorem flushed_eq (c : Dev nD) (t : Fin cfg0.N) (hf : (cfg0.win 5).flush t = true) :
    (dats m 0 c).flushed 5 t = ((cfg0.win 5).blk t).view.read (Elt Ideal) (result m c) := by
  have h1 : t.val % 5 = 4 := (flush0_5 t).mp hf
  have hN : t.val < 160 := lt_of_lt_of_eq t.isLt (show cfg0.N = 160 from N_0)
  obtain ⟨-, -, -, -, -, -, -, -, -, -, -, e0, e1⟩ := Blocks.idx_facts t
  rw [Value.flushed5 m c t]
  funext y
  have hy0 : (y 0).val < 64 := (y 0).isLt
  have hy1 : (y 1).val < 512 := (y 1).isLt
  have e : (cfg0.win 5).xinj (grid0.coords t) y = ix2 (⟨(y 0).val, hy0⟩ : Fin 64) (⟨(y 1).val, hy1⟩ : Fin 512) :=
    funext fun a => by
      match a with
      | ⟨0, _⟩ => rfl
      | ⟨1, _⟩ => rfl
  show (outsAt0 m c t.val t.isLt).1 ((cfg0.win 5).xinj (grid0.coords t) y) = result m c (((cfg0.win 5).blk t).view.emb y)
  rw [e, out_last m c t h1]
  unfold result
  refine congrArg (pooled (Aof m c) (Bof m c) (Wof m c) (bof m c)) (funext fun a => Fin.ext ?_)
  match a with
  | ⟨0, _⟩ => show (64 * (t.val / 5) + (y 0).val) % 2048 = win0_5.index t (0 : Fin 2) * 64 + 1 * (y 0).val; rw [e0]; omega
  | ⟨1, _⟩ => show (y 1).val = win0_5.index t (1 : Fin 2) * 512 + 1 * (y 1).val; rw [e1]; omega

/-- An index of the result is in point t's block iff each coordinate is in the block's range on its axis. -/
theorem mem_blk (t : Fin cfg0.N) (i : S2048x512.Idx) :
    i ∈ ((cfg0.win 5).blk t).view.set ↔ ∀ a : Fin 2, win0_5.index t a * S64x512.size a ≤ (i a).val ∧ (i a).val < win0_5.index t a * S64x512.size a + S64x512.size a := by
  show i ∈ ((View.whole main_v20).slice (win0_5.rect t)).set ↔ _
  rw [View.set_slice_whole, Rect.mem_set_unit]
  exact Iff.rfl

/-- Row p of the result lies in the block written back at the last tile of row block p / 64. -/
theorem cover (i : S2048x512.Idx) : ∃ t : Fin cfg0.N, (cfg0.win 5).flush t = true ∧ i ∈ ((cfg0.win 5).blk t).view.set := by
  have hi0 : (i 0).val < 2048 := (i 0).isLt
  have hi1 : (i 1).val < 512 := (i 1).isLt
  have hlt : 5 * ((i 0).val / 64) + 4 < cfg0.N := lt_of_lt_of_eq (show 5 * ((i 0).val / 64) + 4 < 160 by omega) (show cfg0.N = 160 from N_0).symm
  refine ⟨⟨5 * ((i 0).val / 64) + 4, hlt⟩, (flush0_5 _).mpr (by show (5 * ((i 0).val / 64) + 4) % 5 = 4; omega), ?_⟩
  obtain ⟨-, -, -, -, -, -, -, -, -, -, -, e0, e1⟩ := Blocks.idx_facts ⟨5 * ((i 0).val / 64) + 4, hlt⟩
  have e0' : win0_5.index ⟨5 * ((i 0).val / 64) + 4, hlt⟩ (0 : Fin 2) = (5 * ((i 0).val / 64) + 4) / 5 := e0
  rw [mem_blk]
  intro a
  match a with
  | ⟨0, _⟩ =>
    show win0_5.index ⟨5 * ((i 0).val / 64) + 4, hlt⟩ (0 : Fin 2) * 64 ≤ (i 0).val ∧ (i 0).val < win0_5.index ⟨5 * ((i 0).val / 64) + 4, hlt⟩ (0 : Fin 2) * 64 + 64
    rw [e0']; omega
  | ⟨1, _⟩ =>
    show win0_5.index ⟨5 * ((i 0).val / 64) + 4, hlt⟩ (1 : Fin 2) * 512 ≤ (i 1).val ∧ (i 1).val < win0_5.index ⟨5 * ((i 0).val / 64) + 4, hlt⟩ (1 : Fin 2) * 512 + 512
    rw [e1]; omega

/-- The result array after the run. -/
theorem final (c : Dev nD) : (dats m 0 c).arrAt 5 cfg0.N = result m c :=
  (dats m 0 c).arrAt_eq_of_cover 5 (result m c) (flushed_eq m c) cover

/-- The run, read: the result array at the mean-pooled activation, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KernelValue

end
-- ==== Proof.RefValue.lean ====
/-
  The reference computes the same function.

  The reference joins the two gathered embedding arrays along the feature axis — positions 0 … 127 of a joined row are
  the first array's, 128 … 255 the second's —, multiplies the joined rows by the whole weight matrix, adds the bias,
  rectifies, sums over the 200 tokens from zero and divides by 200. A sum over the 256 joined positions is the sum over its
  two halves, which are the two 128-term products the kernel forms; zero plus a sum is the sum; and dividing an extended
  real by 200 is multiplying it by 1/200. So its result is the mean-pooled activation of the specification.
-/
import proofs.«173847_j43705587204338_1_alg».proof.Proof.Gen.ReferenceIdeal.Read
import proofs.«173847_j43705587204338_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Spec

/-- The divisor's bit pattern denotes the real 200. -/
theorem ofBits_200 : Ideal.ofBits .f32 0x43480000#32 = ((200 : ℝ) : EReal) := by
  simp [Ideal.ofBits, Ideal.ieee, -EReal.coe_mul]; norm_num

variable (x0 x1 : (⟨S2048x200, .i32⟩ : BufTy).Contents (Elt Ideal)) (x2 : (⟨S6x128, .f32⟩ : BufTy).Contents (Elt Ideal))
  (x3 : (⟨S100001x128, .f32⟩ : BufTy).Contents (Elt Ideal)) (x4 : (⟨S256x512, .f32⟩ : BufTy).Contents (Elt Ideal))
  (x5 : (⟨S512, .f32⟩ : BufTy).Contents (Elt Ideal))

/-- A joined row's first 128 positions are the first gathered array's row, -/
theorem v14_lo (p : Fin 2048) (l : Fin 200) (d : Fin 128) :
    val_main_v14 (F := Ideal) x0 x1 x2 x3 (ix3 p l (lo d)) = val_main_v6 (F := Ideal) x0 x2 (ix3 p l d) := by
  unfold val_main_v14
  exact concatenate_pair_apply_left (t := S2048x200x256) (s₁ := S2048x200x128) (s₂ := S2048x200x128) (2 : Fin 3)
    (val_main_v6 (F := Ideal) x0 x2) (val_main_v13 (F := Ideal) x1 x3) concatenates_S2048x200x128_S2048x200x128_S2048x200x256_d2
    (ix3 p l (lo d)) rfl (ix3 p l d) (fun b => by
      match b with
      | ⟨0, _⟩ => rfl
      | ⟨1, _⟩ => rfl
      | ⟨2, _⟩ => rfl)

/-- and its last 128 the second's. -/
theorem v14_hi (p : Fin 2048) (l : Fin 200) (d : Fin 128) :
    val_main_v14 (F := Ideal) x0 x1 x2 x3 (ix3 p l (hi d)) = val_main_v13 (F := Ideal) x1 x3 (ix3 p l d) := by
  unfold val_main_v14
  exact concatenate_pair_apply_right (t := S2048x200x256) (s₁ := S2048x200x128) (s₂ := S2048x200x128) (2 : Fin 3)
    (val_main_v6 (F := Ideal) x0 x2) (val_main_v13 (F := Ideal) x1 x3) concatenates_S2048x200x128_S2048x200x128_S2048x200x256_d2
    (ix3 p l (hi d)) rfl rfl (ix3 p l d) (fun b hb => by
      match b with
      | ⟨0, _⟩ => rfl
      | ⟨1, _⟩ => rfl
      | ⟨2, _⟩ => exact absurd rfl hb)
    (by show d.val + 128 = 128 + d.val; omega)

/-- The rectified stage at (p, l, q) is token (p, l)'s activation at hidden unit q. -/
theorem act_eq (p : Fin 2048) (l : Fin 200) (q : Fin 512) :
    val_main_v19 (F := Ideal) x0 x1 x2 x3 x4 x5 (ix3 p l q)
      = act (val_main_v6 (F := Ideal) x0 x2) (val_main_v13 (F := Ideal) x1 x3) x4 x5 p l q := by
  have eL : ∀ k : Fin 256, lidx_main_v15 (ix3 p l q) k = ix3 p l k := fun k => funext fun a => by
    match a with
    | ⟨0, _⟩ => rfl
    | ⟨1, _⟩ => rfl
    | ⟨2, _⟩ => rfl
  have eR : ∀ k : Fin 256, ridx_main_v15 (ix3 p l q) k = ix2 k q := fun k => funext fun a => by
    match a with
    | ⟨0, _⟩ => rfl
    | ⟨1, _⟩ => rfl
  have eb : idx_main_v16 (idx_main_v17 (ix3 p l q)) = ix1 q := funext fun a => by
    match a with
    | ⟨0, _⟩ => rfl
  rw [val_main_v19_apply, val_main_v18_apply, val_main_v15_apply, val_main_v17_apply, val_main_v16_apply,
    val_main_call0_v0_apply, val_main_call0_cst_apply, sum_halves]
  unfold act
  simp only [Ideal.maximumf_def, Ideal.addf_def, Ideal.ofBits_def, Ideal.ofBits_zero_f32, eL, eR, eb, v14_lo, v14_hi]

/-- The reference's result is the mean-pooled activation. -/
theorem ref_eq : val_main_v22 (F := Ideal) x0 x1 x2 x3 x4 x5
    = pooled (val_main_v6 (F := Ideal) x0 x2) (val_main_v13 (F := Ideal) x1 x3) x4 x5 := by
  funext i
  obtain ⟨p, q, rfl⟩ : ∃ (p : Fin 2048) (q : Fin 512), i = ix2 p q := ⟨i 0, i 1, eq_ix2 i⟩
  have eI : ∀ k : Fin 200, idx_main_v20 (ix2 p q) k = ix3 p k q := fun k => funext fun a => by
    match a with
    | ⟨0, _⟩ => rfl
    | ⟨1, _⟩ => rfl
    | ⟨2, _⟩ => rfl
  rw [val_main_v22_apply, val_main_v21_apply, val_main_cst_3_apply, val_main_v20_apply, val_main_cst_apply]
  simp only [eI, act_eq]
  unfold pooled
  simp only [Ideal.hostDivf_def, Ideal.ofBits_def, Ideal.ofBits_zero_f32, zero_add, ofBits_200]
  exact Ideal.div_coe (by norm_num) _

end Cert.ReferenceIdeal.RefValue

end
-- ==== Proof.lean ====
/-
  The certificate of the fused embedding kernel against its jnp reference.

  Both programs gather rows of two embedding tables at the same (sign-normalized) integer indices, on the host and by the
  same operations. The reference joins the two gathered arrays along the feature axis, multiplies the joined rows of
  length 256 by the weight matrix, adds the bias, rectifies, and takes the mean over the 200 tokens of each batch row. The
  kernel never forms the joined array: over a grid of 32 row blocks by five token tiles it multiplies each gathered block
  by its half of the weight matrix, adds the two products and the bias, rectifies, sums a tile's forty tokens into a
  scratch accumulator that is reset at a row block's first tile, and at the last tile stores the accumulator times the
  named constant 1/200. Over the extended reals a change of float format is the identity, a sum over 256 positions is the
  sum of its two halves, a sum over 200 tokens is the sum of its five tiles of forty in any grouping, zero plus a sum is the
  sum, and division by 200 is multiplication by 1/200: the two results are one function of the arguments (Proof/Spec.lean's
  `pooled`), with no use made of the inputs' finiteness.

  The three frames are the generated ones (the reference's is its generated run with the result dropped); the one entry
  of the idealization's ledger is the named constant's statement.
-/
import proofs.«173847_j43705587204338_1_alg».proof.Defs
import proofs.«173847_j43705587204338_1_alg».proof.Proof.Gen.Kernel
import proofs.«173847_j43705587204338_1_alg».proof.Proof.Gen.Kernel.Skeleton
import proofs.«173847_j43705587204338_1_alg».proof.Proof.Gen.Kernel.Launch
import proofs.«173847_j43705587204338_1_alg».proof.Proof.Gen.Kernel.Points
import proofs.«173847_j43705587204338_1_alg».proof.Proof.Gen.Kernel.Frame
import proofs.«173847_j43705587204338_1_alg».proof.Proof.Gen.KernelIdeal
import proofs.«173847_j43705587204338_1_alg».proof.Proof.Gen.KernelIdeal.Skeleton
import proofs.«173847_j43705587204338_1_alg».proof.Proof.Gen.KernelIdeal.Launch
import proofs.«173847_j43705587204338_1_alg».proof.Proof.Gen.KernelIdeal.Points
import proofs.«173847_j43705587204338_1_alg».proof.Proof.Gen.KernelIdeal.Frame
import proofs.«173847_j43705587204338_1_alg».proof.Proof.Gen.ReferenceIdeal
import proofs.«173847_j43705587204338_1_alg».proof.Proof.Gen.Pre_finite_inputs
import proofs.«173847_j43705587204338_1_alg».proof.Proof.Gen.KernelIdeal.Value
import proofs.«173847_j43705587204338_1_alg».proof.Proof.Gen.ReferenceIdeal.Run
import proofs.«173847_j43705587204338_1_alg».proof.Proof.Gen.ReferenceIdeal.Read
import proofs.«173847_j43705587204338_1_alg».proof.Proof.KernelValue
import proofs.«173847_j43705587204338_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives "inv_200" the value 1/200, which the printed constant is at the ideal values. -/
theorem preserves : Cert.preserves_Kernel_KernelIdeal :=
  IdealRules.named_const.statement Cert.KernelIdeal.κ "inv_200" .f32 0x3BA3D70A#32 ((1 / 200 : ℝ) : EReal) rfl

/-- From memories that agree on the arguments both runs end with the result array at the mean-pooled activation of those
    arguments: the kernel's by its value leg, the reference's by its run read stage by stage. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rw [Cert.ReferenceIdeal.Read.val_main_v22_eq, Cert.ReferenceIdeal.RefValue.ref_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
